-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S1024 : Shape := ⟨1, ![1024]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) (main_arg5 : IVec S1024 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S1024 : Shape := ⟨1, ![1024]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S1024x1 : Shape := ⟨2, ![1024, 1]⟩
abbrev S1024x64 : Shape := ⟨2, ![1024, 64]⟩
abbrev S51200x64 : Shape := ⟨2, ![51200, 64]⟩
abbrev S1024x51200 : Shape := ⟨2, ![1024, 51200]⟩
abbrev S1280x64 : Shape := ⟨2, ![1280, 64]⟩
abbrev S1024x1280 : Shape := ⟨2, ![1024, 1280]⟩
abbrev S1024x50000 : Shape := ⟨2, ![1024, 50000]⟩

abbrev nBuf : Space → Nat
  | .hbm => 79
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S1024, .i32⟩
  | .hbm, ⟨6, _⟩ => ⟨S150000x64, .f32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x64, .f32⟩
  | .hbm, ⟨16, _⟩ => ⟨S4000000x1, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S150000x64, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x64, .f32⟩
  | .hbm, ⟨33, _⟩ => ⟨S4000000x1, .f32⟩
  | .hbm, ⟨34, _⟩ => ⟨S4000000x64, .f32⟩
  | .hbm, ⟨35, _⟩ => ⟨S4000000x64, .f32⟩
  | .hbm, ⟨36, _⟩ => ⟨S_, .f32⟩
  | .hbm, ⟨37, _⟩ => ⟨S150000x64, .f32⟩
  | .hbm, ⟨38, _⟩ => ⟨S4000000x1, .i32⟩
  | .hbm, ⟨39, _⟩ => ⟨S150000x64, .f32⟩
  | .hbm, ⟨40, _⟩ => ⟨S150000x64, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000x64, .f32⟩
  | .hbm, ⟨50, _⟩ => ⟨S4000000x1, .f32⟩
  | .hbm, ⟨51, _⟩ => ⟨S4000000x64, .f32⟩
  | .hbm, ⟨52, _⟩ => ⟨S4000000x64, .f32⟩
  | .hbm, ⟨53, _⟩ => ⟨S_, .f32⟩
  | .hbm, ⟨54, _⟩ => ⟨S150000x64, .f32⟩
  | .hbm, ⟨55, _⟩ => ⟨S4000000x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1024x64, .f32⟩
  | .hbm, ⟨72, _⟩ => ⟨S_, .i32⟩
  | .hbm, ⟨73, _⟩ => ⟨S_, .f32⟩
  | .hbm, ⟨74, _⟩ => ⟨S51200x64, .f32⟩
  | .hbm, ⟨75, _⟩ => ⟨S1024x64, .bf16⟩
  | .hbm, ⟨76, _⟩ => ⟨S51200x64, .bf16⟩
  | .hbm, ⟨77, _⟩ => ⟨S1024x51200, .f32⟩
  | .hbm, ⟨78, _⟩ => ⟨S1024x50000, .f32⟩
  | .local _ .vmem, ⟨0, _⟩ => ⟨S1024x64, .bf16⟩
  | .local _ .vmem, ⟨1, _⟩ => ⟨S1280x64, .bf16⟩
  | .local _ .vmem, ⟨2, _⟩ => ⟨S1280x64, .bf16⟩
  | .local _ .vmem, ⟨3, _⟩ => ⟨S1024x1280, .f32⟩
  | .local _ .vmem, ⟨4, _⟩ => ⟨S1024x1280, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S100000x64_S50000x64_S150000x64_d0 : Shape.Concatenates [S100000x64, S50000x64] S150000x64 0
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S1024 : S_.BroadcastsInDim S1024 (![] : Fin 0 → Fin S1024.rank)
  bcast_S1024_S1024x1_0 : S1024.BroadcastsInDim S1024x1 (![0] : Fin 1 → Fin S1024x1.rank)
  pads_S50000x64_S51200x64_012000_000 : S50000x64.Pads (![0, 0] : Fin 2 → Nat) ![1200, 0] ![0, 0] S51200x64
  h_S_ : 0 < S_.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  inb_S1024x1280_S1024x1280_0_0 : ∀ a, (![0, 0] : Fin 2 → Nat) a + S1024x1280.size a ≤ S1024x1280.size a
  h_S1024x1280 : 0 < S1024x1280.numel
  slices_S1024x51200_S1024x50000_0_0 : S1024x51200.Slices ![0, 0] S1024x50000
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S1024x1_S1024x64_1_0_n_n_0_1_164_wf : GatherDims.WF S100000x64 S1024x1 S1024x64 [1] [0] [] [0] [] 1 ![1, 64]
  dot_S1024x64_S1280x64_S1024x1280_1_1_0_0_n_n_wf : DotDims.WF S1024x64 S1280x64 S1024x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .bf16 = 32 ∨ (Rect.block (s := S1024x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x64.size a ≤ S51200x64.size a
  hwx0_1 : ∀ i : grid0.Coords, EltTy.bits .bf16 = 32 ∨ (Rect.block (s := S51200x64) S1280x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S1024x51200.size a
  hwx0_2 : ∀ i : grid0.Coords, EltTy.bits .f32 = 32 ∨ (Rect.block (s := S1024x51200) S1024x1280.size (cc0_transform_2 i) (hinb0_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S1280x64_S1024x1280_1_1_0_0_n_n : DotDims S1024x64 S1280x64 S1024x1280 where
  lhsContracting := [1]
  rhsContracting := [1]
  lhsNonContracting := [0]
  rhsNonContracting := [0]
  lhsBatch := []
  rhsBatch := []
  wf := dot_S1024x64_S1280x64_S1024x1280_1_1_0_0_n_n_wf

abbrev win0_0 : Pipeline.Window sig grid0 :=
  Pipeline.Window.ofSpec (Memref.whole main_v55) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1280x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1024x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S1024 : Shape := ⟨1, ![1024]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S1024x1 : Shape := ⟨2, ![1024, 1]⟩
abbrev S1024x64 : Shape := ⟨2, ![1024, 64]⟩
abbrev S64x50000 : Shape := ⟨2, ![64, 50000]⟩
abbrev S1024x50000 : Shape := ⟨2, ![1024, 50000]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S1024, .i32⟩
  | .hbm, ⟨6, _⟩ => ⟨S150000x64, .f32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x64, .f32⟩
  | .hbm, ⟨16, _⟩ => ⟨S4000000x1, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S150000x64, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x64, .f32⟩
  | .hbm, ⟨33, _⟩ => ⟨S4000000x1, .f32⟩
  | .hbm, ⟨34, _⟩ => ⟨S4000000x64, .f32⟩
  | .hbm, ⟨35, _⟩ => ⟨S4000000x64, .f32⟩
  | .hbm, ⟨36, _⟩ => ⟨S_, .f32⟩
  | .hbm, ⟨37, _⟩ => ⟨S150000x64, .f32⟩
  | .hbm, ⟨38, _⟩ => ⟨S4000000x1, .i32⟩
  | .hbm, ⟨39, _⟩ => ⟨S150000x64, .f32⟩
  | .hbm, ⟨40, _⟩ => ⟨S150000x64, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000x64, .f32⟩
  | .hbm, ⟨50, _⟩ => ⟨S4000000x1, .f32⟩
  | .hbm, ⟨51, _⟩ => ⟨S4000000x64, .f32⟩
  | .hbm, ⟨52, _⟩ => ⟨S4000000x64, .f32⟩
  | .hbm, ⟨53, _⟩ => ⟨S_, .f32⟩
  | .hbm, ⟨54, _⟩ => ⟨S150000x64, .f32⟩
  | .hbm, ⟨55, _⟩ => ⟨S4000000x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1024x64, .f32⟩
  | .hbm, ⟨72, _⟩ => ⟨S64x50000, .f32⟩
  | .hbm, ⟨73, _⟩ => ⟨S1024x50000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S1024 : S_.BroadcastsInDim S1024 (![] : Fin 0 → Fin S1024.rank)
  bcast_S1024_S1024x1_0 : S1024.BroadcastsInDim S1024x1 (![0] : Fin 1 → Fin S1024x1.rank)
  transposes_S50000x64_S64x50000_1_0 : S50000x64.Transposes [1, 0] S64x50000
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S1024x1_S1024x64_1_0_n_n_0_1_164_wf : GatherDims.WF S100000x64 S1024x1 S1024x64 [1] [0] [] [0] [] 1 ![1, 64]
  dot_S1024x64_S64x50000_S1024x50000_1_0_0_1_n_n_wf : DotDims.WF S1024x64 S64x50000 S1024x50000 [1] [0] [0] [1] [] []

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x50000_S1024x50000_1_0_0_1_n_n : DotDims S1024x64 S64x50000 S1024x50000 where
  lhsContracting := [1]
  rhsContracting := [0]
  lhsNonContracting := [0]
  rhsNonContracting := [1]
  lhsBatch := []
  rhsBatch := []
  wf := dot_S1024x64_S64x50000_S1024x50000_1_0_0_1_n_n_wf

class Facts : Prop extends Facts₀ where

variable [Facts]
-- ==== Proof.LibRowsDot.lean ====
/-
  Rows against rows: the product of an M×K matrix with an N×K matrix, both contracted on their last axis.

  Entry (a, b) of such a product is the accumulator's entry plus Σ_c A(a, c) · B(b, c) — row a of the left operand
  against row b of the right one.  Read at the exact values (floats as extended reals), for the vector unit's product
  into an arbitrary accumulator and into the zero accumulator, where the sum stands alone.
-/
import Idealize.ShloMosaic.Lib.ValueIdx
import Idealize.ShloMosaic.PureOps.Ideal.Laws

noncomputable section

open scoped BigOperators

namespace Cert.RowsDot

open Idealize.ShloMosaic Idealize.ShloMosaic.ValueIdx

variable {m k n : Nat} {φ₁ φ₂ : FTy}

/-- The dimension numbers "contract the last axis of both operands", over any evidence of their well-formedness. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand is read at (a, c): its row is the output's row, its column the contracted position. -/
theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

/-- The right operand is read at (b, c): its row is the output's column, its column the contracted position. -/
theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- Into any accumulator: entry (a, b) is the accumulator's plus Σ_c A(a, c) · B(b, c). -/
theorem matmul_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (acc : FVec Ideal ⟨2, ![m, n]⟩ .f32) (a : Fin m) (b : Fin n) :
    FloatOps.matmul (dims w) prec A B acc (ix2 a b) = acc (ix2 a b) + ∑ c : Fin k, A (ix2 a c) * B (ix2 b c) := by
  rw [Ideal.matmul_apply, ← Equiv.sum_comp (contrEquiv1 (dims w) k rfl rfl).symm]
  refine congrArg (acc (ix2 a b) + ·) (Finset.sum_congr rfl fun c _ => ?_)
  rw [lhsIdx_eq, rhsIdx_eq]

/-- Into the zero accumulator: entry (a, b) is Σ_c A(a, c) · B(b, c). -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (dims w) k rfl rfl).symm]
  refine Finset.sum_congr rfl fun c _ => ?_
  rw [lhsIdx_eq, rhsIdx_eq]

end Cert.RowsDot

end
-- ==== Proof.RowProducts.lean ====
/-
  The table of row-against-row products of two matrices.

  For a matrix U of M rows and a matrix I of N rows, both of K columns, the table's entry (a, b) is
  Σ_c U(a, c) · I(b, c): row a of U against row b of I.  This is U · Iᵀ, written without the transpose.
  The entries are extended reals; nothing below needs more of them than that a sum of products is
  determined by its terms, so no finiteness is asked of U or I.

  Two plain facts about the table are kept here: a table read at the index built from (a, b) is the entry
  (a, b); and an entry only looks at one row of each matrix, so matrices that carry the same two rows, at
  whatever positions and among whatever other rows, give the same entry.
-/
import Idealize.ShloMosaic.Lib.ValueIdx

noncomputable section

open scoped BigOperators

namespace Cert.RowProducts

open Idealize.ShloMosaic Idealize.ShloMosaic.ValueIdx

variable {M M' N N' K : Nat}

/-- Row `a` of `U` against row `b` of `I`: Σ_c U(a, c) · I(b, c). -/
def entry (U : (⟨2, ![M, K]⟩ : Shape).Idx → EReal) (I : (⟨2, ![N, K]⟩ : Shape).Idx → EReal) (a : Fin M) (b : Fin N) : EReal :=
  ∑ c : Fin K, U (ix2 a c) * I (ix2 b c)

/-- The M×N table of all of them. -/
def table (U : (⟨2, ![M, K]⟩ : Shape).Idx → EReal) (I : (⟨2, ![N, K]⟩ : Shape).Idx → EReal) :
    (⟨2, ![M, N]⟩ : Shape).Idx → EReal :=
  fun i => entry U I ⟨(i 0).val, idx2_lt0 i⟩ ⟨(i 1).val, idx2_lt1 i⟩

/-- The table at the index (a, b) is the entry (a, b). -/
theorem table_ix2 (U : (⟨2, ![M, K]⟩ : Shape).Idx → EReal) (I : (⟨2, ![N, K]⟩ : Shape).Idx → EReal) (a : Fin M) (b : Fin N) :
    table U I (ix2 a b) = entry U I a b := rfl

/-- An entry depends on one row of each matrix only: if row `a` of `U` is row `a'` of `U'` and row `b` of `I` is
    row `b'` of `I'` (the matrices may have different heights), the two entries are equal. -/
theorem entry_congr {U : (⟨2, ![M, K]⟩ : Shape).Idx → EReal} {U' : (⟨2, ![M', K]⟩ : Shape).Idx → EReal}
    {I : (⟨2, ![N, K]⟩ : Shape).Idx → EReal} {I' : (⟨2, ![N', K]⟩ : Shape).Idx → EReal}
    (a : Fin M) (a' : Fin M') (b : Fin N) (b' : Fin N')
    (hU : ∀ c : Fin K, U (ix2 a c) = U' (ix2 a' c)) (hI : ∀ c : Fin K, I (ix2 b c) = I' (ix2 b' c)) :
    entry U I a b = entry U' I' a' b' :=
  Finset.sum_congr rfl fun c _ => by rw [hU c, hI c]

end Cert.RowProducts

end
-- ==== Proof.BodyProduct.lean ====
/-
  What one grid step of the kernel computes.

  The body loads a block U of 1024 rows and a block I of 1280 rows, both of 64 columns, multiplies them on the
  matrix unit with both operands contracted along their columns, into a zero accumulator, and stores the
  1024×1280 result.  At the exact values entry (a, b) of that result is Σ_c U(a, c) · I(b, c): the table of
  row-against-row products of the two blocks.  (The two shape casts in the body are to the same shape and
  change nothing; the zero accumulator adds nothing.)
-/
import proofs.«176944_j27917287424334_1_alg».proof.Proof.Gen.KernelIdeal.Skeleton
import proofs.«176944_j27917287424334_1_alg».proof.Proof.LibRowsDot
import proofs.«176944_j27917287424334_1_alg».proof.Proof.RowProducts
import Idealize.ShloMosaic.Lib.Pipeline.Value

noncomputable section

namespace Cert.KernelIdeal.BodyProduct

open Cert.KernelIdeal Cert.KernelIdeal.Gen Idealize.ShloMosaic Idealize.ShloMosaic.ValueIdx

/-- The stored block, entry by entry, is the table of row-against-row products of the two loaded blocks. -/
theorem pay_apply (x0 : Vec Ideal S1024x64 .bf16) (x1 : Vec Ideal S1280x64 .bf16) (a : Fin 1024) (b : Fin 1280) :
    k0_pay1 (F := Ideal) x0 x1 (ix2 a b) = Cert.RowProducts.entry x0 x1 a b := by
  unfold k0_pay1
  rw [shapeCast_self, shapeCast_self]
  exact Cert.RowsDot.matmul_zero_apply dot_S1024x64_S1280x64_S1024x1280_1_1_0_0_n_n_wf none x0 x1 a b

/-- The same for the whole block. -/
theorem pay_eq (x0 : Vec Ideal S1024x64 .bf16) (x1 : Vec Ideal S1280x64 .bf16) :
    k0_pay1 (F := Ideal) x0 x1 = Cert.RowProducts.table x0 x1 := by
  funext j
  obtain ⟨a, b, rfl⟩ : ∃ (a : Fin 1024) (b : Fin 1280), j = ix2 a b := ⟨j 0, j 1, eq_ix2 j⟩
  exact pay_apply x0 x1 a b

end Cert.KernelIdeal.BodyProduct

end
-- ==== Proof.Tiles.lean ====
/-
  The forty column tiles fill the wide table.

  The region's output array has 1024 rows and 51200 columns.  Grid step t multiplies the whole 1024×64 left
  array against rows 1280·t … 1280·t + 1279 of the 51200×64 right array and writes the 1024×1280 result
  to columns 1280·t … 1280·t + 1279 of the output.  An entry of a row-against-row table looks at one row
  of each operand only, so what step t writes is exactly the tile of the table of the two WHOLE arrays
  that sits under its columns; the forty tiles are disjoint and every column lies in the tile of its
  quotient by 1280, so after the last step the output array is that table.
-/
import proofs.«176944_j27917287424334_1_alg».proof.Proof.Gen.KernelIdeal.Frame
import proofs.«176944_j27917287424334_1_alg».proof.Proof.BodyProduct
import Idealize.ShloMosaic.Lib.Pipeline.Value

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The body reads and writes its whole staging buffers: the offsets of its rectangles are zero on both axes. -/
theorem offsets_zero : (![0, 0] : Fin 2 → Nat) = fun _ => 0 := funext fun a => by fin_cases a <;> rfl

/-- The table of row-against-row products of the two operand arrays as the region finds them. -/
def wide (c : Dev nD) : S1024x51200.Idx → EReal :=
  Cert.RowProducts.table (M := 1024) (N := 51200) (K := 64) (V m c main_v55) (V m c main_v56)

/-- Where the blocks sit: the left operand's one block is the whole array; at step `t` the right operand's block
    starts at row block `t`, and the output's at column block `t`. -/
theorem block_positions : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Entry `j` of step `t`'s output block sits in the array at the same row and at column 1280·t + (j 1). -/
theorem emb_out (t : Fin cfg0.N) (j : ((cfg0.win 2).xblock (grid0.coords t)).Idx) (hj0 : (j 0).val < 1024)
    (h : t.val * 1280 + (j 1).val < 51200) :
    ((cfg0.win 2).blk t).view.emb j = ix2 (n0 := 1024) (n1 := 51200) ⟨(j 0).val, hj0⟩ ⟨t.val * 1280 + (j 1).val, h⟩ := by
  obtain ⟨-, -, -, -, e20, e21⟩ := block_positions t
  funext a; apply Fin.ext
  match a with
  | ⟨0, _⟩ => show win0_2.index t (0 : Fin 2) * 1024 + 1 * (j 0).val = (j 0).val; omega
  | ⟨1, _⟩ => show win0_2.index t (1 : Fin 2) * 1280 + 1 * (j 1).val = t.val * 1280 + (j 1).val; omega

/-- The left operand's one block is the whole array: an entry of the block sits in the array where it sits in the block. -/
theorem emb_left (t : Fin cfg0.N) (a : Fin 1024) (k : Fin 64) :
    ((cfg0.win 0).blk t).view.emb (ix2 a k) = ix2 (n0 := 1024) (n1 := 64) a k := by
  obtain ⟨e00, e01, -, -, -, -⟩ := block_positions t
  funext d; apply Fin.ext
  match d with
  | ⟨0, _⟩ => show win0_0.index t (0 : Fin 2) * 1024 + 1 * a.val = a.val; omega
  | ⟨1, _⟩ => show win0_0.index t (1 : Fin 2) * 64 + 1 * k.val = k.val; omega

/-- Row `b` of the right operand's block at step `t` is row 1280·t + b of the array. -/
theorem emb_right (t : Fin cfg0.N) (b : Fin 1280) (k : Fin 64) (h : t.val * 1280 + b.val < 51200) :
    ((cfg0.win 1).blk t).view.emb (ix2 b k) = ix2 (n0 := 51200) (n1 := 64) ⟨t.val * 1280 + b.val, h⟩ k := by
  obtain ⟨-, -, e10, e11, -, -⟩ := block_positions t
  funext d; apply Fin.ext
  match d with
  | ⟨0, _⟩ => show win0_1.index t (0 : Fin 2) * 1280 + 1 * b.val = t.val * 1280 + b.val; omega
  | ⟨1, _⟩ => show win0_1.index t (1 : Fin 2) * 64 + 1 * k.val = k.val; omega

/-- WHAT STEP `t` WRITES BACK is the tile of the wide table under its columns. -/
theorem step_writes_tile (c : Dev nD) (t : Fin cfg0.N) :
    (dats m 0 c).flushed 2 t = ((cfg0.win 2).blk t).view.read (Elt Ideal) (wide m c) := by
  show (cfg0.win 2).cut (grid0.coords t) ((dats m 0 c).after 2 t) = _
  rw [after0_2]
  unfold out0_2
  rw [View.canon_unit_zero offsets_zero]
  simp only [View.ld_unit_zero (S := S1024x64) offsets_zero, View.ld_unit_zero (S := S1280x64) offsets_zero]
  rw [Cert.KernelIdeal.BodyProduct.pay_eq]
  have ht : t.val < 40 := lt_of_lt_of_eq t.isLt N_0
  funext j
  have hj0 : (j 0).val < 1024 := (j 0).isLt
  have hj1 : (j 1).val < 1280 := (j 1).isLt
  have hcol : t.val * 1280 + (j 1).val < 51200 := by omega
  show Cert.RowProducts.table (iblk m c 0 t) (iblk m c 1 t) j = wide m c (((cfg0.win 2).blk t).view.emb j)
  rw [emb_out t j hj0 hcol]
  refine Cert.RowProducts.entry_congr (M := 1024) (M' := 1024) (N := 1280) (N' := 51200) (K := 64)
    ⟨(j 0).val, hj0⟩ ⟨(j 0).val, hj0⟩ ⟨(j 1).val, hj1⟩ ⟨t.val * 1280 + (j 1).val, hcol⟩ (fun k => ?_) (fun k => ?_)
  · show (V m c main_v55 : S1024x64.Idx → EReal) (((cfg0.win 0).blk t).view.emb (ix2 ⟨(j 0).val, hj0⟩ k)) = _
    rw [emb_left t ⟨(j 0).val, hj0⟩ k]
  · show (V m c main_v56 : S51200x64.Idx → EReal) (((cfg0.win 1).blk t).view.emb (ix2 ⟨(j 1).val, hj1⟩ k)) = _
    rw [emb_right t ⟨(j 1).val, hj1⟩ k hcol]

/-- An index of the output array is in step `t`'s block iff each coordinate is in the block's range on its axis. -/
theorem in_tile_iff (t : Fin cfg0.N) (i : S1024x51200.Idx) :
    i ∈ ((cfg0.win 2).blk t).view.set ↔ ∀ a : Fin 2, win0_2.index t a * S1024x1280.size a ≤ (i a).val
      ∧ (i a).val < win0_2.index t a * S1024x1280.size a + S1024x1280.size a := by
  show i ∈ ((View.whole main_v57).slice (win0_2.rect t)).set ↔ _
  rw [View.set_slice_whole, Rect.mem_set_unit]
  exact Iff.rfl

/-- Every column block has its step. -/
theorem step_of_block : ∀ q : Fin 40, ∃ t : Fin cfg0.N, t.val = q.val :=
  (by decide +kernel : ∀ q : Fin 40, ∃ t : Fin grid0.N, t.val = q.val)

/-- EVERY INDEX IS COVERED: column `n` lies in the block of step `n / 1280`, which writes back. -/
theorem every_column_in_a_tile (i : S1024x51200.Idx) :
    ∃ t : Fin cfg0.N, (cfg0.win 2).flush t = true ∧ i ∈ ((cfg0.win 2).blk t).view.set := by
  have hi0 : (i 0).val < 1024 := (i 0).isLt
  have hi1 : (i 1).val < 51200 := (i 1).isLt
  obtain ⟨t, ht⟩ := step_of_block ⟨(i 1).val / 1280, by omega⟩
  have ht' : t.val = (i 1).val / 1280 := ht
  obtain ⟨-, -, -, -, e20, e21⟩ := block_positions t
  refine ⟨t, flush0_2 t, ?_⟩
  rw [in_tile_iff]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1280 ≤ (i 1).val ∧ (i 1).val < win0_2.index t (1 : Fin 2) * 1280 + 1280; omega

/-- THE OUTPUT ARRAY after the last step is the table of row-against-row products of the two operand arrays. -/
theorem output_array (c : Dev nD) : (dats m 0 c).arrAt 2 cfg0.N = wide m c :=
  (dats m 0 c).arrAt_eq_of_cover 2 (wide m c) (fun t _ => step_writes_tile m c t) every_column_in_a_tile

end Cert.KernelIdeal.Tiles

end
-- ==== Proof.Operands.lean ====
/-
  What the region's two operand arrays hold.

  Before the region the program computes, on the host, a 1024×64 array of user rows and a 50000×64 array of
  item rows (embeddings after three rounds of weighted neighbourhood sums, averaged; how they are computed
  does not matter here, because the reference computes the very same two arrays by the very same chain of
  operations, and the chain is carried as one function of the six arguments and never opened).

  The region's left operand is the user rows re-expressed in the shorter float format.  Its right operand is
  the item rows with 1200 rows of padding appended below them, re-expressed in the shorter float format.  At
  the exact values a change of float format changes nothing, and the padding sits below row 49999, so: every
  row of the left operand is the user row, and every row b < 50000 of the right operand is item row b.
-/
import proofs.«176944_j27917287424334_1_alg».proof.Proof.Gen.KernelIdeal.Frame
import proofs.«176944_j27917287424334_1_alg».proof.Proof.Gen.ReferenceIdeal.Read
import Idealize.ShloMosaic.Lib.StableHlo.Run
import Idealize.ShloMosaic.Lib.KernelVsHost
import Idealize.ShloMosaic.Lib.ValueIdx

set_option pp.maxSteps 5000
set_option pp.deepTerms false

noncomputable section

namespace Cert.KernelIdeal.Operands

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The user rows: the host chain's 1024×64 array, as one function of the six arguments. -/
def userRows (c : Dev nD) : S1024x64.Idx → EReal :=
  Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The item rows: the host chain's 50000×64 array, as one function of the first five arguments. -/
def itemRows (c : Dev nD) : S50000x64.Idx → EReal :=
  Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

set_option maxRecDepth 8192 in
set_option maxHeartbeats 8000000 in
/-- The left operand as the region finds it: the user rows, re-expressed in the shorter float format. -/
theorem left_operand (c : Dev nD) :
    (V m c main_v55 : S1024x64.Idx → EReal) = (truncf .bf16 (userRows m c) bitsLt_bf16_f32 : FVec Ideal S1024x64 .bf16) := by
  dsimp only [V, V0]
  simp only [hostOps0, hostOps0_1, hostOps0_2, List.flatten_cons, List.flatten_nil, List.append_nil, List.cons_append,
    List.nil_append]
  after_results_simp
  first | rfl | fail "left operand: the composed term is not the named chain by rfl"

set_option maxRecDepth 8192 in
set_option maxHeartbeats 8000000 in
/-- The right operand as the region finds it: the item rows with 1200 rows of padding (the integer 0 as a float)
    appended below, re-expressed in the shorter float format. -/
theorem right_operand (c : Dev nD) :
    (V m c main_v56 : S51200x64.Idx → EReal)
      = (truncf .bf16 (pad S51200x64 ![0, 0] ![1200, 0] ![0, 0] (itemRows m c)
          (sitofp .f32 (constantI S_ 32 0#32) : FVec Ideal S_ .f32) pads_S50000x64_S51200x64_012000_000 h_S_) bitsLt_bf16_f32
            : FVec Ideal S51200x64 .bf16) := by
  dsimp only [V, V0]
  simp only [hostOps0, hostOps0_1, hostOps0_2, List.flatten_cons, List.flatten_nil, List.append_nil, List.cons_append,
    List.nil_append]
  after_results_simp
  first | rfl | fail "right operand: the composed term is not the named chain by rfl"

end Cert.KernelIdeal.Operands

end
-- ==== Proof.KernelResult.lean ====
/-
  What the kernel's program returns.

  After the region the program keeps columns 0 … 49999 of the 1024×51200 output array.  That array is the
  table of row-against-row products of the region's two operands; its column b < 50000 only looks at row b of
  the right operand, which is item row b (the padding rows are below), and its row a only looks at row a of
  the left operand, which is user row a.  So the program returns the 1024×50000 table of user rows against
  item rows: entry (a, b) is Σ_c user(a, c) · item(b, c).
-/
import proofs.«176944_j27917287424334_1_alg».proof.Proof.Tiles
import proofs.«176944_j27917287424334_1_alg».proof.Proof.Operands
import Idealize.ShloMosaic.Lib.Pipeline.Value
import Idealize.ShloMosaic.Lib.KernelVsHost
import Idealize.ShloMosaic.Lib.StableHlo.Run

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.ValueIdx
open Cert.KernelIdeal.Tiles Cert.KernelIdeal.Operands

variable (m : (ℓ : Loc nD τ sig) → Buf (Elt Ideal) ℓ) (ρ : Dev nD → PrngReg)

/-- The table of user rows against item rows. -/
def ratings (c : Dev nD) : S1024x50000.Idx → EReal :=
  Cert.RowProducts.table (M := 1024) (N := 50000) (K := 64) (userRows m c) (itemRows m c)

/-- Row `a` of the region's left operand is user row `a`. -/
theorem left_row (c : Dev nD) (a : Fin 1024) (k : Fin 64) :
    (V m c main_v55 : S1024x64.Idx → EReal) (ix2 a k) = userRows m c (ix2 a k) := by
  rw [left_operand]; rfl

/-- Row `b < 50000` of the region's right operand is item row `b`: the padding is below. -/
theorem right_row (c : Dev nD) (b : Fin 50000) (k : Fin 64) (h : b.val < 51200) :
    (V m c main_v56 : S51200x64.Idx → EReal) (ix2 ⟨b.val, h⟩ k) = itemRows m c (ix2 b k) := by
  rw [right_operand]
  show pad S51200x64 ![0, 0] ![1200, 0] ![0, 0] (itemRows m c) _ pads_S50000x64_S51200x64_012000_000 h_S_ (ix2 ⟨b.val, h⟩ k) = _
  refine pad_apply_of_inside ![0, 0] ![1200, 0] ![0, 0] (itemRows m c) _ pads_S50000x64_S51200x64_012000_000 h_S_ _ (ix2 b k) fun d => ?_
  match d with
  | ⟨0, _⟩ => show b.val = 0 + b.val * (0 + 1); omega
  | ⟨1, _⟩ => show k.val = 0 + k.val * (0 + 1); omega

/-- The kept columns of the wide table are the table of user rows against item rows. -/
theorem kept_columns (c : Dev nD) :
    extractStridedSlice S1024x50000 ![0, 0] (wide m c) slices_S1024x51200_S1024x50000_0_0 = ratings m c := by
  funext i
  obtain ⟨a, b, rfl⟩ : ∃ (a : Fin 1024) (b : Fin 50000), i = ix2 a b := ⟨i 0, i 1, eq_ix2 i⟩
  have hb : b.val < 51200 := by have := b.isLt; omega
  rw [extractStridedSlice_apply ![0, 0] (wide m c) slices_S1024x51200_S1024x50000_0_0 (ix2 a b)
    (ix2 (n0 := 1024) (n1 := 51200) a ⟨b.val, hb⟩) (fun d => by
      match d with
      | ⟨0, _⟩ => show a.val = 0 + a.val; omega
      | ⟨1, _⟩ => show b.val = 0 + b.val; omega)]
  exact Cert.RowProducts.entry_congr (M := 1024) (M' := 1024) (N := 51200) (N' := 50000) (K := 64)
    a a ⟨b.val, hb⟩ b (fun k => left_row m c a k) (fun k => right_row m c b k hb)

/-- The program's result buffer after the host line that follows the region. -/
theorem tail_eq (c : Dev nD) :
    Pipeline.afterTail₀ cfgs (dats m) 0 (V0 m) [hostOps1] c main_v58 = ratings m c := by
  unfold Pipeline.afterTail₀
  show StableHlo.after hostOps1 _ (Proc.devRef .tc main_v58) = _
  after_results
  -- the region's output array, as the line after the region finds it, is the wide table
  have hw : (Pipeline.withArrays (cfgs 0).spec c (V0 m c) (fun w => (dats m 0 c).arrAt w (cfgs 0).N)
      (Proc.devRef .tc main_v57) : S1024x51200.Idx → EReal) = wide m c :=
    (Pipeline.withArrays_arr spec0 launch0.win.arr_inj c _ _ 2).trans (output_array m c)
  rw [hw]
  exact kept_columns m c

/-- THE RUN of the kernel's program at the exact values: every weakly fair execution terminates, nothing faults, the
    result is the table of user rows against item rows, and the arguments end as they were. -/
theorem run : θ_run defs (onTc (τ := τ) (main (F := Ideal))) ⟨m, fun _ => 0, ρ⟩ (fun r => ∀ c : Dev nD,
      r.2.mem ((c.tc : Thread nD τ).loc main_v58) = ratings m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v58 (Pipeline.mem_restRefs_of main_v58 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.ReferenceResult.lean ====
/-
  What the reference returns.

  The reference takes the same 1024×64 array of user rows and the same 50000×64 array of item rows, transposes
  the item rows to a 64×50000 array and forms the ordinary matrix product.  Entry (a, b) of that product is
  Σ_c user(a, c) · itemᵀ(c, b) = Σ_c user(a, c) · item(b, c): the table of user rows against item rows.
  The two arrays of rows are carried as they are named, never opened.
-/
import proofs.«176944_j27917287424334_1_alg».proof.Proof.Gen.ReferenceIdeal.Read
import proofs.«176944_j27917287424334_1_alg».proof.Proof.RowProducts

noncomputable section

namespace Cert.ReferenceIdeal.Result

open Cert.ReferenceIdeal Cert.ReferenceIdeal.Gen Cert.ReferenceIdeal.Read
open Idealize.ShloMosaic Idealize.ShloMosaic.ValueIdx

/-- The reference's product of the user rows with the transposed item rows is the table of user rows against item rows. -/
theorem product_eq (x0 : (⟨S100000x64, .f32⟩ : BufTy).Contents (Elt Ideal)) (x1 : (⟨S50000x64, .f32⟩ : BufTy).Contents (Elt Ideal)) (x2 : (⟨S4000000, .f32⟩ : BufTy).Contents (Elt Ideal)) (x3 x4 : (⟨S4000000, .i32⟩ : BufTy).Contents (Elt Ideal)) (x5 : (⟨S1024, .i32⟩ : BufTy).Contents (Elt Ideal)) :
    val_main_v55 (F := Ideal) x0 x1 x2 x3 x4 x5
      = Cert.RowProducts.table (M := 1024) (N := 50000) (K := 64) (val_main_v53 (F := Ideal) x0 x1 x2 x3 x4 x5)
          (val_main_v46 (F := Ideal) x0 x1 x2 x3 x4) := by
  funext i
  rw [val_main_v55_apply]
  unfold Cert.RowProducts.table Cert.RowProducts.entry
  refine Finset.sum_congr rfl fun k _ => ?_
  rw [val_main_v54_apply]
  generalize val_main_v53 (F := Ideal) x0 x1 x2 x3 x4 x5 = U
  generalize val_main_v46 (F := Ideal) x0 x1 x2 x3 x4 = I
  -- the left factor is read at (row of i, k); the transposed right factor at (k, column of i), that is item row (column of i) at k
  have e1 : lidx_main_v55 i k = ix2 (n0 := 1024) (n1 := 64) ⟨(i 0).val, idx2_lt0 i⟩ k :=
    funext fun a => Fin.ext (by match a with | ⟨0, _⟩ => rfl | ⟨1, _⟩ => rfl)
  have e2 : idx_main_v54 (ridx_main_v55 i k) = ix2 (n0 := 50000) (n1 := 64) ⟨(i 1).val, idx2_lt1 i⟩ k :=
    funext fun a => Fin.ext (by match a with | ⟨0, _⟩ => rfl | ⟨1, _⟩ => rfl)
  rw [e1, e2]

end Cert.ReferenceIdeal.Result

end
-- ==== Proof.lean ====
/-
  Ratings of a batch of users against all items: the tiled matrix-unit product against the plain one.

  Both programs first compute, by one and the same chain of host operations on the six arguments, a 1024×64
  array of user rows and a 50000×64 array of item rows.  The reference then returns user · itemᵀ: entry (a, b)
  is Σ_c user(a, c) · item(b, c).  The kernel's program appends 1200 padding rows to the item rows, re-expresses
  both arrays in a shorter float format, and runs forty grid steps; step t multiplies the user rows on the
  matrix unit against item rows 1280·t … 1280·t + 1279, contracting both operands along their 64 columns into
  a zero accumulator, and writes the 1024×1280 result under columns 1280·t … of a 1024×51200 array, of which
  the program keeps columns 0 … 49999.

  At the exact values (floats as extended reals, a change of float format the identity) the two results are
  the same table, entry by entry, because
    · an entry of a row-against-row product looks at ONE row of each operand, so each step's block is the
      tile of the product of the two whole arrays under its columns, and the forty tiles fill the array;
    · a kept column b < 50000 looks at row b of the padded array, which is item row b: the padding is never read;
    · the product into a zero accumulator is the bare sum Σ_c, and so is the reference's matrix product, whose
      transposed right factor at (c, b) is item(b, c).
  The two sums have the same terms in the same order, so no law of arithmetic beyond that is used and nothing is
  asked of the inputs: the precondition is never opened.  The shared host chain is carried as one named function
  of the arguments on both sides and never unfolded.

  The three frame claims are the generated frame certificates (the reference's is its generated run with the result
  dropped); the idealization rewrote no operation, so there is nothing to preserve.
-/
import proofs.«176944_j27917287424334_1_alg».proof.Defs
import proofs.«176944_j27917287424334_1_alg».proof.Proof.Gen.Kernel
import proofs.«176944_j27917287424334_1_alg».proof.Proof.Gen.Kernel.Frame
import proofs.«176944_j27917287424334_1_alg».proof.Proof.Gen.KernelIdeal
import proofs.«176944_j27917287424334_1_alg».proof.Proof.Gen.KernelIdeal.Frame
import proofs.«176944_j27917287424334_1_alg».proof.Proof.Gen.ReferenceIdeal
import proofs.«176944_j27917287424334_1_alg».proof.Proof.Gen.ReferenceIdeal.Run
import proofs.«176944_j27917287424334_1_alg».proof.Proof.Gen.ReferenceIdeal.Read
import proofs.«176944_j27917287424334_1_alg».proof.Proof.Gen.Pre_finite_inputs
import proofs.«176944_j27917287424334_1_alg».proof.Proof.KernelResult
import proofs.«176944_j27917287424334_1_alg».proof.Proof.ReferenceResult
import Idealize.ShloMosaic.Adequacy
import Idealize.ShloMosaic.Init

noncomputable section

namespace Cert.Proof

open Idealize.ShloMosaic Idealize.SL.Sem

/-- The kernel's program as printed runs, faults nowhere and leaves its arguments as they were. -/
theorem frame_kernel : Cert.frame_Kernel := fun m ρ _ => Cert.Kernel.Gen.frame m ρ

/-- So does its reading at the exact values. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel's program. -/
theorem preserves : Cert.preserves_Kernel_KernelIdeal := trivial

/-- From arguments that agree, both programs end with the table of user rows against item rows. -/
theorem algebraic : Cert.algebraic_KernelIdeal_ReferenceIdeal := by
  intro m ρ m' ρ' _ hagree
  refine ⟨fun c => Cert.KernelIdeal.Result.ratings m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2.1,
    (hagree c).2.2.2.2.1, (hagree c).2.2.2.2.2]
  exact Cert.ReferenceIdeal.Result.product_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
